-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x6400000 : Shape := ⟨2, ![2, 6400000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S200000x128 .f32) (main_arg1 : IVec S2x6400000 32) (main_arg2 : FVec F S128x16 .f32) (main_arg3 : FVec F S16 .f32) (main_arg4 : FVec F S16x32 .f32) (main_arg5 : FVec F S32 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg4
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg5 main_v13 main_v16
-- ==== Kernel.lean ====
abbrev S200000x128 : Shape := ⟨2, ![200000, 128]⟩
abbrev S2x6400000 : Shape := ⟨2, ![2, 6400000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S1x6400000 : Shape := ⟨2, ![1, 6400000]⟩
abbrev S6400000 : Shape := ⟨1, ![6400000]⟩
abbrev S200000 : Shape := ⟨1, ![200000]⟩
abbrev S6600000 : Shape := ⟨1, ![6600000]⟩
abbrev S_ : Shape := ⟨0, ![]⟩
abbrev S6600000x1 : Shape := ⟨2, ![6600000, 1]⟩
abbrev S200000x16 : Shape := ⟨2, ![200000, 16]⟩
abbrev S10000x128 : Shape := ⟨2, ![10000, 128]⟩
abbrev S10000x16 : Shape := ⟨2, ![10000, 16]⟩
abbrev S6600000x16 : Shape := ⟨2, ![6600000, 16]⟩
abbrev S1x16 : Shape := ⟨2, ![1, 16]⟩
abbrev S200000x32 : Shape := ⟨2, ![200000, 32]⟩
abbrev S10000x32 : Shape := ⟨2, ![10000, 32]⟩
abbrev S6600000x32 : Shape := ⟨2, ![6600000, 32]⟩
abbrev S1x32 : Shape := ⟨2, ![1, 32]⟩

abbrev nBuf : Space → Nat
  | .hbm => 88
  | .vmem => 10
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S200000, .i32⟩
  | .hbm, ⟨11, _⟩ => ⟨S6600000, .i32⟩
  | .hbm, ⟨12, _⟩ => ⟨S6600000, .i32⟩
  | .hbm, ⟨13, _⟩ => ⟨S_, .f32⟩
  | .hbm, ⟨14, _⟩ => ⟨S6600000, .f32⟩
  | .hbm, ⟨15, _⟩ => ⟨S_, .f32⟩
  | .hbm, ⟨16, _⟩ => ⟨S200000, .f32⟩
  | .hbm, ⟨17, _⟩ => ⟨S6600000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S_, .f32⟩
  | .hbm, ⟨24, _⟩ => ⟨S200000, .f32⟩
  | .hbm, ⟨25, _⟩ => ⟨S200000, .f32⟩
  | .hbm, ⟨26, _⟩ => ⟨S_, .i32⟩
  | .hbm, ⟨27, _⟩ => ⟨S6600000, .i32⟩
  | .hbm, ⟨28, _⟩ => ⟨S6600000, .i1⟩
  | .hbm, ⟨29, _⟩ => ⟨S_, .i32⟩
  | .hbm, ⟨30, _⟩ => ⟨S6600000, .i32⟩
  | .hbm, ⟨31, _⟩ => ⟨S6600000, .i32⟩
  | .hbm, ⟨32, _⟩ => ⟨S6600000, .i32⟩
  | .hbm, ⟨33, _⟩ => ⟨S6600000x1, .i32⟩
  | .hbm, ⟨34, _⟩ => ⟨S6600000, .f32⟩
  | .hbm, ⟨35, _⟩ => ⟨S_, .i32⟩
  | .hbm, ⟨36, _⟩ => ⟨S6600000, .i32⟩
  | .hbm, ⟨37, _⟩ => ⟨S6600000, .i1⟩
  | .hbm, ⟨38, _⟩ => ⟨S_, .i32⟩
  | .hbm, ⟨39, _⟩ => ⟨S6600000, .i32⟩
  | .hbm, ⟨40, _⟩ => ⟨S6600000, .i32⟩
  | .hbm, ⟨41, _⟩ => ⟨S6600000, .i32⟩
  | .hbm, ⟨42, _⟩ => ⟨S6600000x1, .i32⟩
  | .hbm, ⟨43, _⟩ => ⟨S6600000, .f32⟩
  | .hbm, ⟨44, _⟩ => ⟨S6600000, .f32⟩
  | .hbm, ⟨45, _⟩ => ⟨S200000x16, .f32⟩
  | .hbm, ⟨46, _⟩ => ⟨S_, .i32⟩
  | .hbm, ⟨47, _⟩ => ⟨S6600000, .i32⟩
  | .hbm, ⟨48, _⟩ => ⟨S6600000, .i1⟩
  | .hbm, ⟨49, _⟩ => ⟨S_, .i32⟩
  | .hbm, ⟨50, _⟩ => ⟨S6600000, .i32⟩
  | .hbm, ⟨51, _⟩ => ⟨S6600000, .i32⟩
  | .hbm, ⟨52, _⟩ => ⟨S6600000, .i32⟩
  | .hbm, ⟨53, _⟩ => ⟨S6600000x1, .i32⟩
  | .hbm, ⟨54, _⟩ => ⟨S6600000x16, .f32⟩
  | .hbm, ⟨55, _⟩ => ⟨S6600000x1, .f32⟩
  | .hbm, ⟨56, _⟩ => ⟨S6600000x16, .f32⟩
  | .hbm, ⟨57, _⟩ => ⟨S6600000x16, .f32⟩
  | .hbm, ⟨58, _⟩ => ⟨S_, .f32⟩
  | .hbm, ⟨59, _⟩ => ⟨S200000x16, .f32⟩
  | .hbm, ⟨60, _⟩ => ⟨S6600000x1, .i32⟩
  | .hbm, ⟨61, _⟩ => ⟨S200000x16, .f32⟩
  | .hbm, ⟨62, _⟩ => ⟨S1x16, .f32⟩
  | .hbm, ⟨63, _⟩ => ⟨S200000x16, .f32⟩
  | .hbm, ⟨64, _⟩ => ⟨S200000x16, .f32⟩
  | .hbm, ⟨65, _⟩ => ⟨S_, .f32⟩
  | .hbm, ⟨66, _⟩ => ⟨S200000x16, .f32⟩
  | .hbm, ⟨67, _⟩ => ⟨S200000x16, .f32⟩
  | .hbm, ⟨68, _⟩ => ⟨S200000x32, .f32⟩
  | .hbm, ⟨69, _⟩ => ⟨S_, .i32⟩
  | .hbm, ⟨70, _⟩ => ⟨S6600000, .i32⟩
  | .hbm, ⟨71, _⟩ => ⟨S6600000, .i1⟩
  | .hbm, ⟨72, _⟩ => ⟨S_, .i32⟩
  | .hbm, ⟨73, _⟩ => ⟨S6600000, .i32⟩
  | .hbm, ⟨74, _⟩ => ⟨S6600000, .i32⟩
  | .hbm, ⟨75, _⟩ => ⟨S6600000, .i32⟩
  | .hbm, ⟨76, _⟩ => ⟨S6600000x1, .i32⟩
  | .hbm, ⟨77, _⟩ => ⟨S6600000x32, .f32⟩
  | .hbm, ⟨78, _⟩ => ⟨S6600000x1, .f32⟩
  | .hbm, ⟨79, _⟩ => ⟨S6600000x32, .f32⟩
  | .hbm, ⟨80, _⟩ => ⟨S6600000x32, .f32⟩
  | .hbm, ⟨81, _⟩ => ⟨S_, .f32⟩
  | .hbm, ⟨82, _⟩ => ⟨S200000x32, .f32⟩
  | .hbm, ⟨83, _⟩ => ⟨S6600000x1, .i32⟩
  | .hbm, ⟨84, _⟩ => ⟨S200000x32, .f32⟩
  | .hbm, ⟨85, _⟩ => ⟨S1x32, .f32⟩
  | .hbm, ⟨86, _⟩ => ⟨S200000x32, .f32⟩
  | .hbm, ⟨87, _⟩ => ⟨S200000x32, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S16x32, .f32⟩
  | .local _ .vmem, ⟨8, _⟩ => ⟨S10000x32, .f32⟩
  | .local _ .vmem, ⟨9, _⟩ => ⟨S10000x32, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  shapeCasts_S10000x16_S10000x16 : S10000x16.ShapeCasts S10000x16
  inb_S16x32_S16x32_0_0 : ∀ a, (![0, 0] : Fin 2 → Nat) a + S16x32.size a ≤ S16x32.size a
  h_S16x32 : 0 < S16x32.numel
  inb_S10000x32_S10000x32_0_0 : ∀ a, (![0, 0] : Fin 2 → Nat) a + S10000x32.size a ≤ S10000x32.size a
  h_S10000x32 : 0 < S10000x32.numel
  bcast_S6600000x1_S6600000x32_0_1 : S6600000x1.BroadcastsInDim S6600000x32 (![0, 1] : Fin 2 → Fin S6600000x32.rank)
  bcast_S_S200000x32 : S_.BroadcastsInDim S200000x32 (![] : Fin 0 → Fin S200000x32.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S10000x128_S128x16_S10000x16_1_0_0_1_n_n_wf : DotDims.WF S10000x128 S128x16 S10000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S10000x16_S16x32_S10000x32_1_0_0_1_n_n_wf : DotDims.WF S10000x16 S16x32 S10000x32 [1] [0] [0] [1] [] []
  gather_S200000x32_S6600000x1_S6600000x32_1_0_n_n_0_1_132_wf : GatherDims.WF S200000x32 S6600000x1 S6600000x32 [1] [0] [] [0] [] 1 ![1, 32]
  scatter_S200000x32_S6600000x1_S6600000x32_1_0_0_1_wf : ScatterDims.WF S200000x32 S6600000x1 S6600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S200000x128.size a
  hwx0_0 : ∀ i : grid0.Coords, EltTy.bits .f32 = 32 ∨ (Rect.block (s := S200000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S200000x16.size a
  hwx0_2 : ∀ i : grid0.Coords, EltTy.bits .f32 = 32 ∨ (Rect.block (s := S200000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S200000x16.size a
  hwx1_0 : ∀ i : grid1.Coords, EltTy.bits .f32 = 32 ∨ (Rect.block (s := S200000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x32.size a ≤ S16x32.size a
  hwx1_1 : ∀ i : grid1.Coords, EltTy.bits .f32 = 32 ∨ (Rect.block (s := S16x32) S16x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S200000x32.size a
  hwx1_2 : ∀ i : grid1.Coords, EltTy.bits .f32 = 32 ∨ (Rect.block (s := S200000x32) S10000x32.size (cc1_transform_2 i) (hinb1_2 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def gather_S200000x32_S6600000x1_S6600000x32_1_0_n_n_0_1_132 : GatherDims S200000x32 S6600000x1 S6600000x32 where
  offsetDims := [1]
  collapsedSliceDims := [0]
  operandBatchingDims := []
  startIndicesBatchingDims := []
  startIndexMap := [0]
  indexVectorDim := 1
  sliceSizes := ![1, 32]
  wf := gather_S200000x32_S6600000x1_S6600000x32_1_0_n_n_0_1_132_wf
def scatter_S200000x32_S6600000x1_S6600000x32_1_0_0_1 : ScatterDims S200000x32 S6600000x1 S6600000x32 where
  updateWindowDims := [1]
  insertedWindowDims := [0]
  scatterDimsToOperandDims := [0]
  indexVectorDim := 1
  wf := scatter_S200000x32_S6600000x1_S6600000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x128 : Shape := ⟨2, ![200000, 128]⟩
abbrev S2x6400000 : Shape := ⟨2, ![2, 6400000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S1x6400000 : Shape := ⟨2, ![1, 6400000]⟩
abbrev S6400000 : Shape := ⟨1, ![6400000]⟩
abbrev S200000x16 : Shape := ⟨2, ![200000, 16]⟩
abbrev S200000 : Shape := ⟨1, ![200000]⟩
abbrev S6600000 : Shape := ⟨1, ![6600000]⟩
abbrev S_ : Shape := ⟨0, ![]⟩
abbrev S6600000x1 : Shape := ⟨2, ![6600000, 1]⟩
abbrev S6600000x16 : Shape := ⟨2, ![6600000, 16]⟩
abbrev S1x16 : Shape := ⟨2, ![1, 16]⟩
abbrev S200000x32 : Shape := ⟨2, ![200000, 32]⟩
abbrev S6600000x32 : Shape := ⟨2, ![6600000, 32]⟩
abbrev S1x32 : Shape := ⟨2, ![1, 32]⟩

abbrev nBuf : Space → Nat
  | .hbm => 123
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S200000x16, .f32⟩
  | .hbm, ⟨11, _⟩ => ⟨S200000, .i32⟩
  | .hbm, ⟨12, _⟩ => ⟨S6600000, .i32⟩
  | .hbm, ⟨13, _⟩ => ⟨S6600000, .i32⟩
  | .hbm, ⟨14, _⟩ => ⟨S_, .f32⟩
  | .hbm, ⟨15, _⟩ => ⟨S6600000, .f32⟩
  | .hbm, ⟨16, _⟩ => ⟨S_, .f32⟩
  | .hbm, ⟨17, _⟩ => ⟨S200000, .f32⟩
  | .hbm, ⟨18, _⟩ => ⟨S6600000x1, .i32⟩
  | .hbm, ⟨19, _⟩ => ⟨S200000, .f32⟩
  | .hbm, ⟨20, _⟩ => ⟨S_, .f32⟩
  | .hbm, ⟨21, _⟩ => ⟨S200000, .f32⟩
  | .hbm, ⟨22, _⟩ => ⟨S200000, .i1⟩
  | .hbm, ⟨23, _⟩ => ⟨S200000, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S_, .i32⟩
  | .hbm, ⟨28, _⟩ => ⟨S6600000, .i32⟩
  | .hbm, ⟨29, _⟩ => ⟨S6600000, .i1⟩
  | .hbm, ⟨30, _⟩ => ⟨S_, .i32⟩
  | .hbm, ⟨31, _⟩ => ⟨S6600000, .i32⟩
  | .hbm, ⟨32, _⟩ => ⟨S6600000, .i32⟩
  | .hbm, ⟨33, _⟩ => ⟨S6600000, .i32⟩
  | .hbm, ⟨34, _⟩ => ⟨S6600000x1, .i32⟩
  | .hbm, ⟨35, _⟩ => ⟨S6600000, .f32⟩
  | .hbm, ⟨36, _⟩ => ⟨S_, .i32⟩
  | .hbm, ⟨37, _⟩ => ⟨S6600000, .i32⟩
  | .hbm, ⟨38, _⟩ => ⟨S6600000, .i1⟩
  | .hbm, ⟨39, _⟩ => ⟨S_, .i32⟩
  | .hbm, ⟨40, _⟩ => ⟨S6600000, .i32⟩
  | .hbm, ⟨41, _⟩ => ⟨S6600000, .i32⟩
  | .hbm, ⟨42, _⟩ => ⟨S6600000, .i32⟩
  | .hbm, ⟨43, _⟩ => ⟨S6600000x1, .i32⟩
  | .hbm, ⟨44, _⟩ => ⟨S6600000, .f32⟩
  | .hbm, ⟨45, _⟩ => ⟨S6600000, .f32⟩
  | .hbm, ⟨46, _⟩ => ⟨S_, .i32⟩
  | .hbm, ⟨47, _⟩ => ⟨S6600000, .i32⟩
  | .hbm, ⟨48, _⟩ => ⟨S6600000, .i1⟩
  | .hbm, ⟨49, _⟩ => ⟨S_, .i32⟩
  | .hbm, ⟨50, _⟩ => ⟨S6600000, .i32⟩
  | .hbm, ⟨51, _⟩ => ⟨S6600000, .i32⟩
  | .hbm, ⟨52, _⟩ => ⟨S6600000, .i32⟩
  | .hbm, ⟨53, _⟩ => ⟨S6600000x1, .i32⟩
  | .hbm, ⟨54, _⟩ => ⟨S6600000x16, .f32⟩
  | .hbm, ⟨55, _⟩ => ⟨S6600000x1, .f32⟩
  | .hbm, ⟨56, _⟩ => ⟨S6600000x16, .f32⟩
  | .hbm, ⟨57, _⟩ => ⟨S6600000x16, .f32⟩
  | .hbm, ⟨58, _⟩ => ⟨S_, .f32⟩
  | .hbm, ⟨59, _⟩ => ⟨S200000x16, .f32⟩
  | .hbm, ⟨60, _⟩ => ⟨S6600000x1, .i32⟩
  | .hbm, ⟨61, _⟩ => ⟨S200000x16, .f32⟩
  | .hbm, ⟨62, _⟩ => ⟨S1x16, .f32⟩
  | .hbm, ⟨63, _⟩ => ⟨S200000x16, .f32⟩
  | .hbm, ⟨64, _⟩ => ⟨S200000x16, .f32⟩
  | .hbm, ⟨65, _⟩ => ⟨S_, .f32⟩
  | .hbm, ⟨66, _⟩ => ⟨S200000x16, .f32⟩
  | .hbm, ⟨67, _⟩ => ⟨S200000x16, .f32⟩
  | .hbm, ⟨68, _⟩ => ⟨S200000x32, .f32⟩
  | .hbm, ⟨69, _⟩ => ⟨S200000, .i32⟩
  | .hbm, ⟨70, _⟩ => ⟨S6600000, .i32⟩
  | .hbm, ⟨71, _⟩ => ⟨S6600000, .i32⟩
  | .hbm, ⟨72, _⟩ => ⟨S_, .f32⟩
  | .hbm, ⟨73, _⟩ => ⟨S6600000, .f32⟩
  | .hbm, ⟨74, _⟩ => ⟨S_, .f32⟩
  | .hbm, ⟨75, _⟩ => ⟨S200000, .f32⟩
  | .hbm, ⟨76, _⟩ => ⟨S6600000x1, .i32⟩
  | .hbm, ⟨77, _⟩ => ⟨S200000, .f32⟩
  | .hbm, ⟨78, _⟩ => ⟨S_, .f32⟩
  | .hbm, ⟨79, _⟩ => ⟨S200000, .f32⟩
  | .hbm, ⟨80, _⟩ => ⟨S200000, .i1⟩
  | .hbm, ⟨81, _⟩ => ⟨S200000, .f32⟩
  | .hbm, ⟨82, _⟩ => ⟨S_, .f32⟩
  | .hbm, ⟨83, _⟩ => ⟨S200000, .f32⟩
  | .hbm, ⟨84, _⟩ => ⟨S200000, .f32⟩
  | .hbm, ⟨85, _⟩ => ⟨S_, .i32⟩
  | .hbm, ⟨86, _⟩ => ⟨S6600000, .i32⟩
  | .hbm, ⟨87, _⟩ => ⟨S6600000, .i1⟩
  | .hbm, ⟨88, _⟩ => ⟨S_, .i32⟩
  | .hbm, ⟨89, _⟩ => ⟨S6600000, .i32⟩
  | .hbm, ⟨90, _⟩ => ⟨S6600000, .i32⟩
  | .hbm, ⟨91, _⟩ => ⟨S6600000, .i32⟩
  | .hbm, ⟨92, _⟩ => ⟨S6600000x1, .i32⟩
  | .hbm, ⟨93, _⟩ => ⟨S6600000, .f32⟩
  | .hbm, ⟨94, _⟩ => ⟨S_, .i32⟩
  | .hbm, ⟨95, _⟩ => ⟨S6600000, .i32⟩
  | .hbm, ⟨96, _⟩ => ⟨S6600000, .i1⟩
  | .hbm, ⟨97, _⟩ => ⟨S_, .i32⟩
  | .hbm, ⟨98, _⟩ => ⟨S6600000, .i32⟩
  | .hbm, ⟨99, _⟩ => ⟨S6600000, .i32⟩
  | .hbm, ⟨100, _⟩ => ⟨S6600000, .i32⟩
  | .hbm, ⟨101, _⟩ => ⟨S6600000x1, .i32⟩
  | .hbm, ⟨102, _⟩ => ⟨S6600000, .f32⟩
  | .hbm, ⟨103, _⟩ => ⟨S6600000, .f32⟩
  | .hbm, ⟨104, _⟩ => ⟨S_, .i32⟩
  | .hbm, ⟨105, _⟩ => ⟨S6600000, .i32⟩
  | .hbm, ⟨106, _⟩ => ⟨S6600000, .i1⟩
  | .hbm, ⟨107, _⟩ => ⟨S_, .i32⟩
  | .hbm, ⟨108, _⟩ => ⟨S6600000, .i32⟩
  | .hbm, ⟨109, _⟩ => ⟨S6600000, .i32⟩
  | .hbm, ⟨110, _⟩ => ⟨S6600000, .i32⟩
  | .hbm, ⟨111, _⟩ => ⟨S6600000x1, .i32⟩
  | .hbm, ⟨112, _⟩ => ⟨S6600000x32, .f32⟩
  | .hbm, ⟨113, _⟩ => ⟨S6600000x1, .f32⟩
  | .hbm, ⟨114, _⟩ => ⟨S6600000x32, .f32⟩
  | .hbm, ⟨115, _⟩ => ⟨S6600000x32, .f32⟩
  | .hbm, ⟨116, _⟩ => ⟨S_, .f32⟩
  | .hbm, ⟨117, _⟩ => ⟨S200000x32, .f32⟩
  | .hbm, ⟨118, _⟩ => ⟨S6600000x1, .i32⟩
  | .hbm, ⟨119, _⟩ => ⟨S200000x32, .f32⟩
  | .hbm, ⟨120, _⟩ => ⟨S1x32, .f32⟩
  | .hbm, ⟨121, _⟩ => ⟨S200000x32, .f32⟩
  | .hbm, ⟨122, _⟩ => ⟨S200000x32, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_call2_v0 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_c_14 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_c_16 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S6600000x1_S6600000x32_0_1 : S6600000x1.BroadcastsInDim S6600000x32 (![0, 1] : Fin 2 → Fin S6600000x32.rank)
  bcast_S_S200000x32 : S_.BroadcastsInDim S200000x32 (![] : Fin 0 → Fin S200000x32.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  dot_S200000x128_S128x16_S200000x16_1_0_0_1_n_n_wf : DotDims.WF S200000x128 S128x16 S200000x16 [1] [0] [0] [1] [] []
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S200000x16_S16x32_S200000x32_1_0_0_1_n_n_wf : DotDims.WF S200000x16 S16x32 S200000x32 [1] [0] [0] [1] [] []
  gather_S200000x32_S6600000x1_S6600000x32_1_0_n_n_0_1_132_wf : GatherDims.WF S200000x32 S6600000x1 S6600000x32 [1] [0] [] [0] [] 1 ![1, 32]
  scatter_S200000x32_S6600000x1_S6600000x32_1_0_0_1_wf : ScatterDims.WF S200000x32 S6600000x1 S6600000x32 [1] [0] [0] 1

variable [Facts₀]

def dot_S200000x128_S128x16_S200000x16_1_0_0_1_n_n : DotDims S200000x128 S128x16 S200000x16 where
  lhsContracting := [1]
  rhsContracting := [0]
  lhsNonContracting := [0]
  rhsNonContracting := [1]
  lhsBatch := []
  rhsBatch := []
  wf := dot_S200000x128_S128x16_S200000x16_1_0_0_1_n_n_wf
def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S200000x16_S16x32_S200000x32_1_0_0_1_n_n : DotDims S200000x16 S16x32 S200000x32 where
  lhsContracting := [1]
  rhsContracting := [0]
  lhsNonContracting := [0]
  rhsNonContracting := [1]
  lhsBatch := []
  rhsBatch := []
  wf := dot_S200000x16_S16x32_S200000x32_1_0_0_1_n_n_wf
def gather_S200000x32_S6600000x1_S6600000x32_1_0_n_n_0_1_132 : GatherDims S200000x32 S6600000x1 S6600000x32 where
  offsetDims := [1]
  collapsedSliceDims := [0]
  operandBatchingDims := []
  startIndicesBatchingDims := []
  startIndexMap := [0]
  indexVectorDim := 1
  sliceSizes := ![1, 32]
  wf := gather_S200000x32_S6600000x1_S6600000x32_1_0_n_n_0_1_132_wf
def scatter_S200000x32_S6600000x1_S6600000x32_1_0_0_1 : ScatterDims S200000x32 S6600000x1 S6600000x32 where
  updateWindowDims := [1]
  insertedWindowDims := [0]
  scatterDimsToOperandDims := [0]
  indexVectorDim := 1
  wf := scatter_S200000x32_S6600000x1_S6600000x32_1_0_0_1_wf

class Facts : Prop extends Facts₀ where

variable [Facts]
-- ==== Proof.KernelRun.lean ====
/-
  The kernel program's run with its RESULT named.

  @main is eight segments: three stretches of host operations, the first dense-product region, two more stretches, the
  second region, and a last stretch. The contents of every buffer at each boundary are a fold from the launch memory
  (`W0` … `W8`): a host stretch applies its operations, a region replaces its output array by what its 20 write-backs
  leave and keeps every other buffer. Every weakly fair execution terminates, without a fault, with every unscoped buffer
  at the last boundary's contents `W8`; so the result buffer ends at `W8` read at the result, and the six argument
  arrays, which no segment writes, end as launched.
-/
import proofs.«149537_j58016418234712_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Run

end
-- ==== Proof.Spec.lean ====
/-
  The two-layer graph convolution as ONE function of the argument arrays, named piece by piece.

  The graph has 200000 nodes and 6400000 edges; `ei` is the [2, 6400000] array of edge endpoints (row 0 the
  sources, row 1 the targets). Every node also gets a loop edge to itself, so there are 6600000 edges in all.

  * `srcIdx ei`, `dstIdx ei`: the 6600000 sources and targets, the given ones followed by 0, 1, …, 199999;
  * `wrapIdx s`: an index vector made a column, a negative entry first raised by 200000 (an index counted from
    the end);
  * `degree d`: for each node the number of edges whose target it is, as a sum of ones scattered to the targets;
  * `degInv d`: degree^(-1/2) where the degree is positive, 0 elsewhere;
  * `edgeNorm s d`: per edge, degInv at its source times degInv at its target;
  * `aggregate16 h s d w b`, `aggregate32 …`: for each node the sum over the edges landing on it of the source's row
    of `h` scaled by the edge's weight `w`, plus the bias row `b` — at row widths 16 and 32;
  * `relu16`: the maximum with 0;
  * `network P₁ P₂ x ei W1 b1 W2 b2`: aggregate32 (P₂ (relu16 (aggregate16 (P₁ x W1) …)) W2) …, where P₁ and P₂ are
    the two dense products, left as parameters: one program computes them by the host's product, the other block by
    block on the matrix unit, and at the extended reals they are one function.

  The definitions are generic in the float instance and are spelt with the reference program's shape facts and
  dimension records; the same operations spelt with another program's facts are the same terms, a fact being a proof.
-/
import proofs.«149537_j58016418234712_2_alg».proof.ReferenceIdeal

noncomputable section

namespace Cert.Gcn

open Idealize.ShloMosaic Cert.ReferenceIdeal Cert.ReferenceIdeal.Facts₀

variable {F : FTy → Type} [FloatOps F] [Cert.ReferenceIdeal.Facts]

/-- An array of 32-bit integers of shape `S`. -/
abbrev IArr (F : FTy → Type) (S : Shape) : Type := (⟨S, .i32⟩ : BufTy).Contents (Elt F)
/-- An array of floats of shape `S`. -/
abbrev FArr (F : FTy → Type) (S : Shape) : Type := (⟨S, .f32⟩ : BufTy).Contents (Elt F)

/-- The sources of the 6600000 edges: row 0 of `ei`, then the loop edges' 0 … 199999. -/
def srcIdx (ei : IArr F S2x6400000) : IArr F S6600000 :=
  concatenate S6600000 0 [⟨S6400000, (shapeCast _ (extractStridedSlice S1x6400000 ![0, 0] ei slices_S2x6400000_S1x6400000_0_0) shapeCasts_S1x6400000_S6400000)⟩, ⟨S200000, (iotaInDim S200000 32 0)⟩] concatenates_S6400000_S200000_S6600000_d0

/-- The targets of the 6600000 edges: row 1 of `ei`, then the loop edges' 0 … 199999. -/
def dstIdx (ei : IArr F S2x6400000) : IArr F S6600000 :=
  concatenate S6600000 0 [⟨S6400000, (shapeCast _ (extractStridedSlice S1x6400000 ![1, 0] ei slices_S2x6400000_S1x6400000_1_0) shapeCasts_S1x6400000_S6400000)⟩, ⟨S200000, (iotaInDim S200000 32 0)⟩] concatenates_S6400000_S200000_S6600000_d0

/-- An index vector as a column of start indices, a negative entry raised by 200000 first. -/
def wrapIdx (s : IArr F S6600000) : IArr F S6600000x1 :=
  broadcastInDim S6600000x1 ![0] bcast_S6600000_S6600000x1_0 (select (cmpi .slt s (broadcastInDim S6600000 ![] bcast_S_S6600000 (constantI S_ 32 0#32))) (addi s (broadcastInDim S6600000 ![] bcast_S_S6600000 (constantI S_ 32 200000#32))) s)

/-- Each node's number of incoming edges: ones scattered, and summed, at the targets. -/
def degree (d : IArr F S6600000) : FArr F S200000 :=
  Host.scatterAdd scatter_S200000_S6600000x1_S6600000_n_0_0_1 (broadcastInDim S200000 ![] bcast_S_S200000 (constant S_ .f32 0x00000000#32)) (broadcastInDim S6600000x1 ![0] bcast_S6600000_S6600000x1_0 d) (broadcastInDim S6600000 ![] bcast_S_S6600000 (constant S_ .f32 0x3F800000#32))

/-- degree^(-1/2) where the degree is positive, 0 elsewhere. -/
def degInv (d : IArr F S6600000) : FArr F S200000 :=
  select (cmpf .ogt (degree d) (broadcastInDim S200000 ![] bcast_S_S200000 (constant S_ .f32 0x00000000#32))) (Host.rsqrt (degree d)) (broadcastInDim S200000 ![] bcast_S_S200000 (constant S_ .f32 0x00000000#32))

/-- Per edge: degInv at its source times degInv at its target. -/
def edgeNorm (s d : IArr F S6600000) : FArr F S6600000 :=
  mulf (Host.gather gather_S200000_S6600000x1_S6600000_n_0_n_n_0_1_1 (degInv d) (wrapIdx s)) (Host.gather gather_S200000_S6600000x1_S6600000_n_0_n_n_0_1_1 (degInv d) (wrapIdx d))

/-- Width 16: for each node the sum over its incoming edges of the source's row of `h` times the edge's weight,
    plus the bias row. -/
def aggregate16 (h : FArr F S200000x16) (s d : IArr F S6600000) (w : FArr F S6600000) (b : FArr F S16) : FArr F S200000x16 :=
  addf (Host.scatterAdd scatter_S200000x16_S6600000x1_S6600000x16_1_0_0_1 (broadcastInDim S200000x16 ![] bcast_S_S200000x16 (constant S_ .f32 0x00000000#32)) (broadcastInDim S6600000x1 ![0] bcast_S6600000_S6600000x1_0 d) (mulf (Host.gather gather_S200000x16_S6600000x1_S6600000x16_1_0_n_n_0_1_116 h (wrapIdx s)) (broadcastInDim S6600000x16 ![0, 1] bcast_S6600000x1_S6600000x16_0_1 (broadcastInDim S6600000x1 ![0] bcast_S6600000_S6600000x1_0 w)))) (broadcastInDim S200000x16 ![0, 1] bcast_S1x16_S200000x16_0_1 (broadcastInDim S1x16 ![1] bcast_S16_S1x16_1 b))

/-- The maximum with 0, entry by entry. -/
def relu16 (x : FArr F S200000x16) : FArr F S200000x16 :=
  maximumf x (broadcastInDim S200000x16 ![] bcast_S_S200000x16 (constant S_ .f32 0x00000000#32))

/-- Width 32: the same aggregation, plus the bias row. -/
def aggregate32 (h : FArr F S200000x32) (s d : IArr F S6600000) (w : FArr F S6600000) (b : FArr F S32) : FArr F S200000x32 :=
  addf (Host.scatterAdd scatter_S200000x32_S6600000x1_S6600000x32_1_0_0_1 (broadcastInDim S200000x32 ![] bcast_S_S200000x32 (constant S_ .f32 0x00000000#32)) (broadcastInDim S6600000x1 ![0] bcast_S6600000_S6600000x1_0 d) (mulf (Host.gather gather_S200000x32_S6600000x1_S6600000x32_1_0_n_n_0_1_132 h (wrapIdx s)) (broadcastInDim S6600000x32 ![0, 1] bcast_S6600000x1_S6600000x32_0_1 (broadcastInDim S6600000x1 ![0] bcast_S6600000_S6600000x1_0 w)))) (broadcastInDim S200000x32 ![0, 1] bcast_S1x32_S200000x32_0_1 (broadcastInDim S1x32 ![1] bcast_S32_S1x32_1 b))

/-- The whole network over two dense products `P₁`, `P₂` given as functions. -/
def network (P₁ : FArr F S200000x128 → FArr F S128x16 → FArr F S200000x16) (P₂ : FArr F S200000x16 → FArr F S16x32 → FArr F S200000x32)
    (x : FArr F S200000x128) (ei : IArr F S2x6400000) (W1 : FArr F S128x16) (b1 : FArr F S16) (W2 : FArr F S16x32) (b2 : FArr F S32) :
    FArr F S200000x32 :=
  aggregate32 (P₂ (relu16 (aggregate16 (P₁ x W1) (srcIdx ei) (dstIdx ei) (edgeNorm (srcIdx ei) (dstIdx ei)) b1)) W2)
    (srcIdx ei) (dstIdx ei) (edgeNorm (srcIdx ei) (dstIdx ei)) b2

end Cert.Gcn

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibMatProd.lean ====
/-
  General lemmas: the product of two matrices over the extended reals as one function read at an index.

  For an [a, k] array L and a [k, n] array R, `mm L R` is the [a, n] array whose entry (p, j) is the sum over q of
  L (p, q) · R (q, j).

  * `mm`, `mm_ix2`: the product and its entry;
  * `mm_congr`: entry (p, j) reads only row p of the left operand and column j of the right one, so a block of rows
    of the product is the product of the block of rows;
  * `hostDot_eq`: the host's plain product, whose dimension record contracts the left operand's columns against the
    right operand's rows, is `mm`;
  * `coreDot_eq`: a matrix-unit product into the zero accumulator, under the same record facts, is `mm`.
  Addition and multiplication on the extended reals are total, so none of this needs finiteness. Nothing here
  mentions a program: the extents are variables and the dimension records are hypotheses.
-/
import proofs.«149537_j58016418234712_2_alg».proof.Proof.LibAffine

noncomputable section

namespace Cert.LibMatProd

open Idealize.ShloMosaic Idealize.ShloMosaic.ValueIdx

variable {a k n : ℕ}

/-- The product of an [a, k] array by a [k, n] array: entry (p, j) is the sum over q of L (p, q) · R (q, j). -/
def mm (L : FVec Ideal ⟨2, ![a, k]⟩ .f32) (R : FVec Ideal ⟨2, ![k, n]⟩ .f32) : FVec Ideal ⟨2, ![a, n]⟩ .f32 :=
  fun i => ∑ q : Fin k, L (ix2 (i 0) q) * R (ix2 q (i 1))

theorem mm_ix2 (L : FVec Ideal ⟨2, ![a, k]⟩ .f32) (R : FVec Ideal ⟨2, ![k, n]⟩ .f32) (p : Fin a) (j : Fin n) :
    mm L R (ix2 p j) = ∑ q : Fin k, L (ix2 p q) * R (ix2 q j) := rfl

/-- Entry (p, j) of the product reads only row p of the left operand and column j of the right one. -/
theorem mm_congr {a' : ℕ} (L : FVec Ideal ⟨2, ![a, k]⟩ .f32) (R : FVec Ideal ⟨2, ![k, n]⟩ .f32)
    (L' : FVec Ideal ⟨2, ![a', k]⟩ .f32) (R' : FVec Ideal ⟨2, ![k, n]⟩ .f32) (p : Fin a) (p' : Fin a') (j : Fin n)
    (hl : ∀ q : Fin k, L (ix2 p q) = L' (ix2 p' q)) (hr : ∀ q : Fin k, R (ix2 q j) = R' (ix2 q j)) :
    mm L R (ix2 p j) = mm L' R' (ix2 p' j) := by
  rw [mm_ix2, mm_ix2]
  exact Finset.sum_congr rfl fun q _ => by rw [hl q, hr q]

/-- The host's plain product of an [a, k] by a [k, n] array is `mm`. -/
theorem hostDot_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ .f32) (R : FVec Ideal ⟨2, ![k, n]⟩ .f32) :
    Host.dotGeneral D prec L R = mm L R := by
  funext i
  obtain ⟨p, j, rfl⟩ : ∃ (p : Fin a) (j : Fin n), i = ix2 p j := ⟨i 0, i 1, eq_ix2 i⟩
  rw [Cert.LibAffine.hostDot_ix2 D hr hs hl0 hl1 hr0 hr1, mm_ix2]

/-- A matrix-unit product of an [a, k] by a [k, n] array into the zero accumulator is `mm`. -/
theorem coreDot_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ .f32) (R : FVec Ideal ⟨2, ![k, n]⟩ .f32) :
    FloatOps.matmul D prec L R (constant ⟨2, ![a, n]⟩ .f32 0x00000000#32) = mm L R := by
  funext i
  obtain ⟨p, j, rfl⟩ : ∃ (p : Fin a) (j : Fin n), i = ix2 p j := ⟨i 0, i 1, eq_ix2 i⟩
  rw [Cert.LibAffine.coreDot_ix2 D hr hs hl0 hl1 hr0 hr1, mm_ix2]

end Cert.LibMatProd

end
-- ==== Proof.NetworkIdeal.lean ====
/-
  The network at the extended reals, over the two dense products as index-by-index sums.

  `prod1 x W1` is the [200000, 16] array whose entry (p, j) is the sum over q of x (p, q) · W1 (q, j); `prod2 h W2` the
  [200000, 32] array of the sums over q of h (p, q) · W2 (q, j). `networkIdeal` is the two-layer graph convolution with
  those two products: the one function of the six argument arrays both programs compute.
-/
import proofs.«149537_j58016418234712_2_alg».proof.Proof.Spec
import proofs.«149537_j58016418234712_2_alg».proof.Proof.LibMatProd

noncomputable section

namespace Cert.Gcn

open Idealize.ShloMosaic Cert.ReferenceIdeal Cert.LibMatProd

variable [Cert.ReferenceIdeal.Facts]

/-- The first layer's dense product x · W1. -/
abbrev prod1 : FArr Ideal S200000x128 → FArr Ideal S128x16 → FArr Ideal S200000x16 :=
  fun x w => mm (a := 200000) (k := 128) (n := 16) x w

/-- The second layer's dense product h · W2. -/
abbrev prod2 : FArr Ideal S200000x16 → FArr Ideal S16x32 → FArr Ideal S200000x32 :=
  fun x w => mm (a := 200000) (k := 16) (n := 32) x w

/-- The two-layer graph convolution at the extended reals. -/
def networkIdeal (x : FArr Ideal S200000x128) (ei : IArr Ideal S2x6400000) (W1 : FArr Ideal S128x16) (b1 : FArr Ideal S16)
    (W2 : FArr Ideal S16x32) (b2 : FArr Ideal S32) : FArr Ideal S200000x32 :=
  network prod1 prod2 x ei W1 b1 W2 b2

end Cert.Gcn

end
-- ==== Proof.LibPlainDot.lean ====
/-
  General lemmas: the dimension record of a plain matrix product.

  A product of an [a, k] array by a [k, n] array contracts the left operand's axis 1 against the right operand's
  axis 0; the result's axis 0 is the left operand's axis 0 and its axis 1 the right operand's axis 1; nothing is
  batched. For ANY dimension record with those six axis lists:

  * `contr_rank`, `contr_size`: the contraction has one axis, of extent k;
  * `lhs_row`, `lhs_col`: at result index i and contraction position q the left operand is read at
    (i 0, q 0);
  * `rhs_row`, `rhs_col`: the right operand is read at (q 0, i 1).

  These are the six facts under which a host product and a matrix-unit product into a zero accumulator are the sum
  over q of L (p, q) · R (q, j). Nothing here mentions a program: the extents are variables and the record is any
  record with the stated axis lists.
-/
import Idealize.ShloMosaic.Lib.ValueIdx

noncomputable section

namespace Cert.LibPlainDot

open Idealize.ShloMosaic Idealize.ShloMosaic.ValueIdx

variable {a k n : ℕ} (D : DotDims ⟨2, ![a, k]⟩ ⟨2, ![k, n]⟩ ⟨2, ![a, n]⟩)

/-- The contraction has one axis. -/
theorem contr_rank (hlc : D.lhsContracting = [1]) : D.contr.rank = 1 := by
  rw [D.rank_contr, hlc]; rfl

/-- Two coordinates of one index at equal positions are equal. -/
private theorem coord_congr {s : Shape} (i : s.Idx) (p q : ℕ) (hp : p < s.rank) (hq : q < s.rank) (h : p = q) :
    (i ⟨p, hp⟩).val = (i ⟨q, hq⟩).val := by subst h; rfl

/-- The contraction's one axis has the left operand's column extent. -/
theorem contr_size (hlc : D.lhsContracting = [1]) :
    D.contr.size ⟨0, by rw [contr_rank D hlc]; exact Nat.one_pos⟩ = k := by
  have h0 : 0 < D.lhsContracting.length := by rw [hlc]; exact Nat.one_pos
  have e := D.size_contr 0 h0
  have e1 : D.lhsContracting[0] = (1 : Fin 2) := by simp only [hlc, List.getElem_cons_zero]
  rw [e1] at e
  exact e

/-- The left operand's row is the result's row. -/
theorem lhs_row (hlb : D.lhsBatch = []) (hln : D.lhsNonContracting = [0]) (i : (⟨2, ![a, n]⟩ : Shape).Idx) (q : D.contr.Idx) :
    (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

/-- The left operand's column is the contraction position. -/
theorem lhs_col (hlc : D.lhsContracting = [1]) (i : (⟨2, ![a, n]⟩ : Shape).Idx) (q : D.contr.Idx) :
    (D.lhsIdx i q 1).val = (q ⟨0, by rw [contr_rank D hlc]; exact Nat.one_pos⟩).val :=
  D.lhsIdx_val_of_single hlc i q

/-- The right operand's row is the contraction position. -/
theorem rhs_row (hlc : D.lhsContracting = [1]) (hrc : D.rhsContracting = [0]) (i : (⟨2, ![a, n]⟩ : Shape).Idx) (q : D.contr.Idx) :
    (D.rhsIdx i q 0).val = (q ⟨0, by rw [contr_rank D hlc]; exact Nat.one_pos⟩).val :=
  D.rhsIdx_val_of_single hrc i q

/-- The right operand's column is the result's column. -/
theorem rhs_col (hlb : D.lhsBatch = []) (hln : D.lhsNonContracting = [0]) (hrb : D.rhsBatch = []) (hrn : D.rhsNonContracting = [1])
    (i : (⟨2, ![a, n]⟩ : Shape).Idx) (q : D.contr.Idx) :
    (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

end Cert.LibPlainDot

end
-- ==== Proof.RegionProducts.lean ====
/-
  What each of the two dense-product regions leaves in its output array, at the extended reals.

  Each region runs over 20 grid points. At point t it is handed rows 10000·t … 10000·t + 9999 of its left operand
  (a [200000, k] array) and the whole [k, n] right operand, and writes rows 10000·t … 10000·t + 9999 of the result:
  the product of the block of rows by the right operand, accumulated from zero on the matrix unit. Rounding the
  operands to a narrower format is the identity at the extended reals, and so is a shape cast to the same shape.

  Entry (p, j) of a product reads only row p of the left operand, so the block of rows t of the whole product IS the
  product of the block of rows t; the 20 blocks tile the rows, so after the region the output array holds the whole
  product `mm L R` of the arrays the region found on entry. Everything is stated at an arbitrary entry contents `V`.
-/
import proofs.«149537_j58016418234712_2_alg».proof.Proof.Gen.KernelIdeal.Frame
import proofs.«149537_j58016418234712_2_alg».proof.Proof.LibMatProd
import proofs.«149537_j58016418234712_2_alg».proof.Proof.LibPlainDot
import Idealize.ShloMosaic.Lib.Pipeline.Value

noncomputable section

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen Cert.LibMatProd Cert.LibPlainDot

variable (V : (c : Dev nD) → (b : Ref sig .tc) → Buf (Elt Ideal) ((c : Thread nD τ).loc b))

theorem zero_offsets : (![0, 0] : Fin 2 → Nat) = fun _ => 0 := funext fun a => by fin_cases a <;> rfl

/-! ## Region 0: [200000, 128] × [128, 16] -/

/-- The body's stored value is the product of the two loaded blocks. -/
theorem payload0 (x0 : Vec Ideal S10000x128 .f32) (x1 : Vec Ideal S128x16 .f32) :
    k0_pay1 x0 x1 = mm (a := 10000) (k := 128) (n := 16) x0 x1 := by
  unfold k0_pay1
  funext i
  obtain ⟨p, j, rfl⟩ : ∃ (p : Fin 10000) (j : Fin 16), i = ix2 p j := ⟨i 0, i 1, eq_ix2 i⟩
  exact Cert.LibAffine.coreDot_ix2 dot_S10000x128_S128x16_S10000x16_1_0_0_1_n_n
    (contr_rank _ rfl) (contr_size _ rfl) (lhs_row _ rfl rfl) (lhs_col _ rfl) (rhs_row _ rfl rfl) (rhs_col _ rfl rfl rfl rfl)
    none _ _ p j

/-- The index maps over the grid: the left operand's and the result's blocks move down the rows with the point, the
    right operand's block stays. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 10000·t … of the array. -/
theorem left0_apply (c : Dev nD) (t : Fin cfg0.N) (x : S10000x128.Idx) (k : S200000x128.Idx)
    (hk0 : (k 0).val = 10000 * t.val + (x 0).val) (hk1 : (k 1).val = (x 1).val) :
    (iblk0 V c 0 t : Vec Ideal S10000x128 .f32) x = (V c main_arg0 : S200000x128.Idx → Elt Ideal .f32) k := by
  obtain ⟨e0, e1, -⟩ := index0 t
  unfold iblk0
  rw [View.read_apply]
  show V c main_arg0 _ = V c main_arg0 _
  refine congrArg (V c main_arg0) ?_
  funext a
  apply Fin.ext
  match a with
  | ⟨0, _⟩ => show win0_0.index t 0 * 10000 + 1 * (x 0).val = (k 0).val; rw [e0, hk0]; omega
  | ⟨1, _⟩ => show win0_0.index t 1 * 128 + 1 * (x 1).val = (k 1).val; rw [e1, hk1]; omega

/-- The right operand's block at every point is the whole array. -/
theorem right0_apply (c : Dev nD) (t : Fin cfg0.N) (x k : S128x16.Idx)
    (hk0 : (k 0).val = (x 0).val) (hk1 : (k 1).val = (x 1).val) :
    (iblk0 V c 1 t : Vec Ideal S128x16 .f32) x = (V c main_arg2 : S128x16.Idx → Elt Ideal .f32) k := by
  obtain ⟨-, -, e2, e3, -⟩ := index0 t
  unfold iblk0
  rw [View.read_apply]
  show V c main_arg2 _ = V c main_arg2 _
  refine congrArg (V c main_arg2) ?_
  funext a
  apply Fin.ext
  match a with
  | ⟨0, _⟩ => show win0_1.index t 0 * 128 + 1 * (x 0).val = (k 0).val; rw [e2, hk0]; omega
  | ⟨1, _⟩ => show win0_1.index t 1 * 16 + 1 * (x 1).val = (k 1).val; rw [e3, hk1]; omega

/-- WHAT POINT t WRITES BACK is block t of the whole product. -/
theorem flushed0 (c : Dev nD) (t : Fin cfg0.N) :
    (dat0 V c).flushed 2 t = ((cfg0.win 2).blk t).view.read (Elt Ideal)
      (mm (a := 200000) (k := 128) (n := 16) (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x16) zero_offsets]
  rw [payload0]
  obtain ⟨-, -, -, -, e4, e5⟩ := index0 t
  funext j
  show mm (a := 10000) (k := 128) (n := 16) (iblk0 V c 0 t) (iblk0 V c 1 t) j
    = mm (a := 200000) (k := 128) (n := 16) (V c main_arg0) (V c main_arg2) (((cfg0.win 2).blk t).view.emb j)
  dsimp only [mm]
  have h0 : ((((cfg0.win 2).blk t).view.emb j) 0).val = 10000 * t.val + (j 0).val := by
    show win0_2.index t 0 * 10000 + 1 * (j 0).val = _; rw [e4]; omega
  have h1 : ((((cfg0.win 2).blk t).view.emb j) 1).val = (j 1).val := by
    show win0_2.index t 1 * 16 + 1 * (j 1).val = _; rw [e5]; omega
  refine Finset.sum_congr rfl fun q _ => ?_
  rw [left0_apply V c t (ix2 (j 0) q) (ix2 ((((cfg0.win 2).blk t).view.emb j) 0) q) h0 rfl,
    right0_apply V c t (ix2 q (j 1)) (ix2 q ((((cfg0.win 2).blk t).view.emb j) 1)) rfl h1]

/-- An index of the result is in point t's block iff its row is among the block's 10000 rows. -/
theorem mem_block0 (t : Fin cfg0.N) (i : S200000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v30).slice (win0_2.rect t)).set ↔ _
  rw [View.set_slice_whole, Rect.mem_set_unit]
  exact Iff.rfl

/-- THE OUTPUT ARRAY after region 0: the whole product of the arrays the region found. -/
theorem product0 (c : Dev nD) :
    (dat0 V c).arrAt 2 cfg0.N = mm (a := 200000) (k := 128) (n := 16) (V c main_arg0) (V c main_arg2) :=
  (dat0 V c).arrAt_eq_of_cover 2 _ (fun t _ => flushed0 V c t) fun i => by
    have hi0 : (i 0).val < 200000 := (i 0).isLt
    have hi1 : (i 1).val < 16 := (i 1).isLt
    have hN : grid0.N = 20 := N_0
    refine ⟨⟨(i 0).val / 10000, by show (i 0).val / 10000 < grid0.N; omega⟩, flush0_2 _, ?_⟩
    rw [mem_block0]
    obtain ⟨-, -, -, -, e4, e5⟩ := index0 ⟨(i 0).val / 10000, by show (i 0).val / 10000 < grid0.N; omega⟩
    intro a
    match a with
    | ⟨0, _⟩ =>
      show win0_2.index _ (0 : Fin 2) * 10000 ≤ (i 0).val ∧ (i 0).val < win0_2.index _ (0 : Fin 2) * 10000 + 10000
      rw [e4]; show (i 0).val / 10000 * 10000 ≤ (i 0).val ∧ (i 0).val < (i 0).val / 10000 * 10000 + 10000; omega
    | ⟨1, _⟩ =>
      show win0_2.index _ (1 : Fin 2) * 16 ≤ (i 1).val ∧ (i 1).val < win0_2.index _ (1 : Fin 2) * 16 + 16
      rw [e5]; omega

/-! ## Region 1: [200000, 16] × [16, 32] -/

/-- The body's stored value is the product of the two loaded blocks. -/
theorem payload1 (x0 : Vec Ideal S10000x16 .f32) (x1 : Vec Ideal S16x32 .f32) :
    k1_pay1 x0 x1 = mm (a := 10000) (k := 16) (n := 32) x0 x1 := by
  unfold k1_pay1
  funext i
  obtain ⟨p, j, rfl⟩ : ∃ (p : Fin 10000) (j : Fin 32), i = ix2 p j := ⟨i 0, i 1, eq_ix2 i⟩
  refine (Cert.LibAffine.coreDot_ix2 dot_S10000x16_S16x32_S10000x32_1_0_0_1_n_n
    (contr_rank _ rfl) (contr_size _ rfl) (lhs_row _ rfl rfl) (lhs_col _ rfl) (rhs_row _ rfl rfl) (rhs_col _ rfl rfl rfl rfl)
    none _ _ p j).trans ?_
  rw [shapeCast_self]
  rfl

theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem left1_apply (c : Dev nD) (t : Fin cfg1.N) (x : S10000x16.Idx) (k : S200000x16.Idx)
    (hk0 : (k 0).val = 10000 * t.val + (x 0).val) (hk1 : (k 1).val = (x 1).val) :
    (iblk1 V c 0 t : Vec Ideal S10000x16 .f32) x = (V c main_v47 : S200000x16.Idx → Elt Ideal .f32) k := by
  obtain ⟨e0, e1, -⟩ := index1 t
  unfold iblk1
  rw [View.read_apply]
  show V c main_v47 _ = V c main_v47 _
  refine congrArg (V c main_v47) ?_
  funext a
  apply Fin.ext
  match a with
  | ⟨0, _⟩ => show win1_0.index t 0 * 10000 + 1 * (x 0).val = (k 0).val; rw [e0, hk0]; omega
  | ⟨1, _⟩ => show win1_0.index t 1 * 16 + 1 * (x 1).val = (k 1).val; rw [e1, hk1]; omega

theorem right1_apply (c : Dev nD) (t : Fin cfg1.N) (x k : S16x32.Idx)
    (hk0 : (k 0).val = (x 0).val) (hk1 : (k 1).val = (x 1).val) :
    (iblk1 V c 1 t : Vec Ideal S16x32 .f32) x = (V c main_arg4 : S16x32.Idx → Elt Ideal .f32) k := by
  obtain ⟨-, -, e2, e3, -⟩ := index1 t
  unfold iblk1
  rw [View.read_apply]
  show V c main_arg4 _ = V c main_arg4 _
  refine congrArg (V c main_arg4) ?_
  funext a
  apply Fin.ext
  match a with
  | ⟨0, _⟩ => show win1_1.index t 0 * 16 + 1 * (x 0).val = (k 0).val; rw [e2, hk0]; omega
  | ⟨1, _⟩ => show win1_1.index t 1 * 32 + 1 * (x 1).val = (k 1).val; rw [e3, hk1]; omega

/-- WHAT POINT t WRITES BACK is block t of the whole product. -/
theorem flushed1 (c : Dev nD) (t : Fin cfg1.N) :
    (dat1 V c).flushed 2 t = ((cfg1.win 2).blk t).view.read (Elt Ideal)
      (mm (a := 200000) (k := 16) (n := 32) (V c main_v47) (V c main_arg4)) := by
  show (cfg1.win 2).cut (grid1.coords t) ((dat1 V c).after 2 t) = _
  rw [after1_2]
  unfold out1_2
  rw [View.canon_unit_zero zero_offsets]
  simp only [View.ld_unit_zero (S := S10000x16) zero_offsets, View.ld_unit_zero (S := S16x32) zero_offsets]
  rw [payload1]
  obtain ⟨-, -, -, -, e4, e5⟩ := index1 t
  funext j
  show mm (a := 10000) (k := 16) (n := 32) (iblk1 V c 0 t) (iblk1 V c 1 t) j
    = mm (a := 200000) (k := 16) (n := 32) (V c main_v47) (V c main_arg4) (((cfg1.win 2).blk t).view.emb j)
  dsimp only [mm]
  have h0 : ((((cfg1.win 2).blk t).view.emb j) 0).val = 10000 * t.val + (j 0).val := by
    show win1_2.index t 0 * 10000 + 1 * (j 0).val = _; rw [e4]; omega
  have h1 : ((((cfg1.win 2).blk t).view.emb j) 1).val = (j 1).val := by
    show win1_2.index t 1 * 32 + 1 * (j 1).val = _; rw [e5]; omega
  refine Finset.sum_congr rfl fun q _ => ?_
  rw [left1_apply V c t (ix2 (j 0) q) (ix2 ((((cfg1.win 2).blk t).view.emb j) 0) q) h0 rfl,
    right1_apply V c t (ix2 q (j 1)) (ix2 q ((((cfg1.win 2).blk t).view.emb j) 1)) rfl h1]

theorem mem_block1 (t : Fin cfg1.N) (i : S200000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v48).slice (win1_2.rect t)).set ↔ _
  rw [View.set_slice_whole, Rect.mem_set_unit]
  exact Iff.rfl

/-- THE OUTPUT ARRAY after region 1: the whole product of the arrays the region found. -/
theorem product1 (c : Dev nD) :
    (dat1 V c).arrAt 2 cfg1.N = mm (a := 200000) (k := 16) (n := 32) (V c main_v47) (V c main_arg4) :=
  (dat1 V c).arrAt_eq_of_cover 2 _ (fun t _ => flushed1 V c t) fun i => by
    have hi0 : (i 0).val < 200000 := (i 0).isLt
    have hi1 : (i 1).val < 32 := (i 1).isLt
    have hN : grid1.N = 20 := N_1
    refine ⟨⟨(i 0).val / 10000, by show (i 0).val / 10000 < grid1.N; omega⟩, flush1_2 _, ?_⟩
    rw [mem_block1]
    obtain ⟨-, -, -, -, e4, e5⟩ := index1 ⟨(i 0).val / 10000, by show (i 0).val / 10000 < grid1.N; omega⟩
    intro a
    match a with
    | ⟨0, _⟩ =>
      show win1_2.index _ (0 : Fin 2) * 10000 ≤ (i 0).val ∧ (i 0).val < win1_2.index _ (0 : Fin 2) * 10000 + 10000
      rw [e4]; show (i 0).val / 10000 * 10000 ≤ (i 0).val ∧ (i 0).val < (i 0).val / 10000 * 10000 + 10000; omega
    | ⟨1, _⟩ =>
      show win1_2.index _ (1 : Fin 2) * 32 ≤ (i 1).val ∧ (i 1).val < win1_2.index _ (1 : Fin 2) * 32 + 32
      rw [e5]; omega

end Cert.KernelIdeal.Regions

end
-- ==== Proof.KernelFold.lean ====
/-
  The kernel program's result as the network over the two whole products.

  The buffer contents at the last boundary, read at the result, are walked back through the program:
  * before the first region the host operations leave the edge sources and targets (`srcIdx`, `dstIdx` of the edge
    array) and the per-edge weights (`edgeNorm`) in three buffers, and write no argument;
  * the first region leaves the whole product x · W1 in its output array (the 20 row blocks, each the product of the
    block of rows) and keeps every other buffer;
  * between the regions the host operations leave relu (aggregate16 (x · W1) … b1) in the second region's left operand,
    and keep the sources, the targets, the weights and the arguments;
  * the second region leaves the whole product of that array by W2;
  * the last stretch leaves aggregate32 of it, plus b2, in the result.
  Each stretch is read at an ARBITRARY entry contents `W`, so that no fold is ever evaluated; the facts are then chained.
  The two products are `mm`, the index-by-index sum of products over the extended reals.
-/
import proofs.«149537_j58016418234712_2_alg».proof.Proof.Gen.KernelIdeal.Frame
import proofs.«149537_j58016418234712_2_alg».proof.Proof.Gen.ReferenceIdeal
import proofs.«149537_j58016418234712_2_alg».proof.Proof.NetworkIdeal
import proofs.«149537_j58016418234712_2_alg».proof.Proof.RegionProducts
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.Gcn Cert.LibMatProd

/-! ## The stretches of host operations, at an arbitrary entry contents -/

section Stretches

variable {F : FTy → Type} [FloatOps F] (W : Valuation τ sig (Elt F))

/-- Before the first region: the edge sources. -/
theorem entry_src : after hostOps0_2 (after hostOps0_1 (after hostOps0 W)) (Proc.devRef .tc main_v5) = srcIdx (W (Proc.devRef .tc main_arg1)) := by
  after_results_simp <;> rfl
/-- Before the first region: the edge targets. -/
theorem entry_dst : after hostOps0_2 (after hostOps0_1 (after hostOps0 W)) (Proc.devRef .tc main_v6) = dstIdx (W (Proc.devRef .tc main_arg1)) := by
  after_results_simp <;> rfl
/-- Before the first region: the per-edge weights. -/
theorem entry_norm : after hostOps0_2 (after hostOps0_1 (after hostOps0 W)) (Proc.devRef .tc main_v29)
    = edgeNorm (srcIdx (W (Proc.devRef .tc main_arg1))) (dstIdx (W (Proc.devRef .tc main_arg1))) := by
  after_results_simp <;> rfl
/-- Before the first region no argument is written. -/
theorem entry_arg0 : after hostOps0_2 (after hostOps0_1 (after hostOps0 W)) (Proc.devRef .tc main_arg0) = W (Proc.devRef .tc main_arg0) := by
  after_results_simp <;> rfl
theorem entry_arg2 : after hostOps0_2 (after hostOps0_1 (after hostOps0 W)) (Proc.devRef .tc main_arg2) = W (Proc.devRef .tc main_arg2) := by
  after_results_simp <;> rfl
theorem entry_arg3 : after hostOps0_2 (after hostOps0_1 (after hostOps0 W)) (Proc.devRef .tc main_arg3) = W (Proc.devRef .tc main_arg3) := by
  after_results_simp <;> rfl
theorem entry_arg4 : after hostOps0_2 (after hostOps0_1 (after hostOps0 W)) (Proc.devRef .tc main_arg4) = W (Proc.devRef .tc main_arg4) := by
  after_results_simp <;> rfl
theorem entry_arg5 : after hostOps0_2 (after hostOps0_1 (after hostOps0 W)) (Proc.devRef .tc main_arg5) = W (Proc.devRef .tc main_arg5) := by
  after_results_simp <;> rfl

/-- Between the regions: the first layer's aggregation, bias and rectifier, into the second region's left operand. -/
theorem mid_hidden : after hostOps1_1 (after hostOps1 W) (Proc.devRef .tc main_v47)
    = relu16 (aggregate16 (W (Proc.devRef .tc main_v30)) (W (Proc.devRef .tc main_v5)) (W (Proc.devRef .tc main_v6)) (W (Proc.devRef .tc main_v29)) (W (Proc.devRef .tc main_arg3))) := by
  after_results_simp <;> rfl
/-- Between the regions the sources, the targets, the weights and the later arguments are kept. -/
theorem mid_src : after hostOps1_1 (after hostOps1 W) (Proc.devRef .tc main_v5) = W (Proc.devRef .tc main_v5) := by
  after_results_simp <;> rfl
theorem mid_dst : after hostOps1_1 (after hostOps1 W) (Proc.devRef .tc main_v6) = W (Proc.devRef .tc main_v6) := by
  after_results_simp <;> rfl
theorem mid_norm : after hostOps1_1 (after hostOps1 W) (Proc.devRef .tc main_v29) = W (Proc.devRef .tc main_v29) := by
  after_results_simp <;> rfl
theorem mid_arg4 : after hostOps1_1 (after hostOps1 W) (Proc.devRef .tc main_arg4) = W (Proc.devRef .tc main_arg4) := by
  after_results_simp <;> rfl
theorem mid_arg5 : after hostOps1_1 (after hostOps1 W) (Proc.devRef .tc main_arg5) = W (Proc.devRef .tc main_arg5) := by
  after_results_simp <;> rfl

/-- After the second region: the second layer's aggregation and bias, into the result. -/
theorem tail_result : after hostOps2 W (Proc.devRef .tc main_v64)
    = aggregate32 (W (Proc.devRef .tc main_v48)) (W (Proc.devRef .tc main_v5)) (W (Proc.devRef .tc main_v6)) (W (Proc.devRef .tc main_v29)) (W (Proc.devRef .tc main_arg5)) := by
  after_results_simp <;> rfl

end Stretches

/-! ## The boundaries, chained -/

variable (m : (ℓ : Loc nD τ sig) → Buf (Elt Ideal) ℓ) (ρ : Dev nD → PrngReg) (c : Dev nD)

/-- The first layer's output, rectified: the second region's left operand. -/
abbrev hidden : FArr Ideal Cert.ReferenceIdeal.S200000x16 :=
  relu16 (aggregate16 (prod1 (m ((c.tc : Thread nD τ).loc main_arg0)) (m ((c.tc : Thread nD τ).loc main_arg2)))
    (srcIdx (m ((c.tc : Thread nD τ).loc main_arg1))) (dstIdx (m ((c.tc : Thread nD τ).loc main_arg1))) (edgeNorm (srcIdx (m ((c.tc : Thread nD τ).loc main_arg1))) (dstIdx (m ((c.tc : Thread nD τ).loc main_arg1)))) (m ((c.tc : Thread nD τ).loc main_arg3)))

-- at the first region's entry
theorem W3_src : W3 m ρ c (Proc.devRef .tc main_v5) = srcIdx (m ((c.tc : Thread nD τ).loc main_arg1)) := entry_src (W0 m ρ c)
theorem W3_dst : W3 m ρ c (Proc.devRef .tc main_v6) = dstIdx (m ((c.tc : Thread nD τ).loc main_arg1)) := entry_dst (W0 m ρ c)
theorem W3_norm : W3 m ρ c (Proc.devRef .tc main_v29) = edgeNorm (srcIdx (m ((c.tc : Thread nD τ).loc main_arg1))) (dstIdx (m ((c.tc : Thread nD τ).loc main_arg1))) := entry_norm (W0 m ρ c)
theorem W3_arg0 : W3 m ρ c (Proc.devRef .tc main_arg0) = m ((c.tc : Thread nD τ).loc main_arg0) := entry_arg0 (W0 m ρ c)
theorem W3_arg2 : W3 m ρ c (Proc.devRef .tc main_arg2) = m ((c.tc : Thread nD τ).loc main_arg2) := entry_arg2 (W0 m ρ c)
theorem W3_arg3 : W3 m ρ c (Proc.devRef .tc main_arg3) = m ((c.tc : Thread nD τ).loc main_arg3) := entry_arg3 (W0 m ρ c)
theorem W3_arg4 : W3 m ρ c (Proc.devRef .tc main_arg4) = m ((c.tc : Thread nD τ).loc main_arg4) := entry_arg4 (W0 m ρ c)
theorem W3_arg5 : W3 m ρ c (Proc.devRef .tc main_arg5) = m ((c.tc : Thread nD τ).loc main_arg5) := entry_arg5 (W0 m ρ c)

-- at the first region's exit
/-- The first region's output array: the whole product x · W1. -/
theorem W4_prod : W4 m ρ c (Proc.devRef .tc main_v30)
    = prod1 (m ((c.tc : Thread nD τ).loc main_arg0)) (m ((c.tc : Thread nD τ).loc main_arg2)) :=
  (W4_arr m ρ c 2).trans ((Cert.KernelIdeal.Regions.product0 (V3 m ρ) c).trans
    (congrArg₂ (fun x w => mm (a := 200000) (k := 128) (n := 16) x w) (W3_arg0 m ρ c) (W3_arg2 m ρ c)))
theorem W4_src : W4 m ρ c (Proc.devRef .tc main_v5) = srcIdx (m ((c.tc : Thread nD τ).loc main_arg1)) := (W4_of_ne m ρ c main_v5 (by decide)).trans (W3_src m ρ c)
theorem W4_dst : W4 m ρ c (Proc.devRef .tc main_v6) = dstIdx (m ((c.tc : Thread nD τ).loc main_arg1)) := (W4_of_ne m ρ c main_v6 (by decide)).trans (W3_dst m ρ c)
theorem W4_norm : W4 m ρ c (Proc.devRef .tc main_v29) = edgeNorm (srcIdx (m ((c.tc : Thread nD τ).loc main_arg1))) (dstIdx (m ((c.tc : Thread nD τ).loc main_arg1))) := (W4_of_ne m ρ c main_v29 (by decide)).trans (W3_norm m ρ c)
theorem W4_arg3 : W4 m ρ c (Proc.devRef .tc main_arg3) = m ((c.tc : Thread nD τ).loc main_arg3) := (W4_of_ne m ρ c main_arg3 (by decide)).trans (W3_arg3 m ρ c)
theorem W4_arg4 : W4 m ρ c (Proc.devRef .tc main_arg4) = m ((c.tc : Thread nD τ).loc main_arg4) := (W4_of_ne m ρ c main_arg4 (by decide)).trans (W3_arg4 m ρ c)
theorem W4_arg5 : W4 m ρ c (Proc.devRef .tc main_arg5) = m ((c.tc : Thread nD τ).loc main_arg5) := (W4_of_ne m ρ c main_arg5 (by decide)).trans (W3_arg5 m ρ c)

-- at the second region's entry
theorem W6_hidden : W6 m ρ c (Proc.devRef .tc main_v47) = hidden m c := by
  refine (mid_hidden (W4 m ρ c)).trans ?_
  rw [W4_prod m ρ c, W4_src m ρ c, W4_dst m ρ c, W4_norm m ρ c, W4_arg3 m ρ c]
theorem W6_src : W6 m ρ c (Proc.devRef .tc main_v5) = srcIdx (m ((c.tc : Thread nD τ).loc main_arg1)) := (mid_src (W4 m ρ c)).trans (W4_src m ρ c)
theorem W6_dst : W6 m ρ c (Proc.devRef .tc main_v6) = dstIdx (m ((c.tc : Thread nD τ).loc main_arg1)) := (mid_dst (W4 m ρ c)).trans (W4_dst m ρ c)
theorem W6_norm : W6 m ρ c (Proc.devRef .tc main_v29) = edgeNorm (srcIdx (m ((c.tc : Thread nD τ).loc main_arg1))) (dstIdx (m ((c.tc : Thread nD τ).loc main_arg1))) := (mid_norm (W4 m ρ c)).trans (W4_norm m ρ c)
theorem W6_arg4 : W6 m ρ c (Proc.devRef .tc main_arg4) = m ((c.tc : Thread nD τ).loc main_arg4) := (mid_arg4 (W4 m ρ c)).trans (W4_arg4 m ρ c)
theorem W6_arg5 : W6 m ρ c (Proc.devRef .tc main_arg5) = m ((c.tc : Thread nD τ).loc main_arg5) := (mid_arg5 (W4 m ρ c)).trans (W4_arg5 m ρ c)

-- at the second region's exit
/-- The second region's output array: the whole product of the hidden layer by W2. -/
theorem W7_prod : W7 m ρ c (Proc.devRef .tc main_v48) = prod2 (hidden m c) (m ((c.tc : Thread nD τ).loc main_arg4)) :=
  (W7_arr m ρ c 2).trans ((Cert.KernelIdeal.Regions.product1 (V6 m ρ) c).trans
    (congrArg₂ (fun x w => mm (a := 200000) (k := 16) (n := 32) x w) (W6_hidden m ρ c) (W6_arg4 m ρ c)))
theorem W7_src : W7 m ρ c (Proc.devRef .tc main_v5) = srcIdx (m ((c.tc : Thread nD τ).loc main_arg1)) := (W7_of_ne m ρ c main_v5 (by decide)).trans (W6_src m ρ c)
theorem W7_dst : W7 m ρ c (Proc.devRef .tc main_v6) = dstIdx (m ((c.tc : Thread nD τ).loc main_arg1)) := (W7_of_ne m ρ c main_v6 (by decide)).trans (W6_dst m ρ c)
theorem W7_norm : W7 m ρ c (Proc.devRef .tc main_v29) = edgeNorm (srcIdx (m ((c.tc : Thread nD τ).loc main_arg1))) (dstIdx (m ((c.tc : Thread nD τ).loc main_arg1))) := (W7_of_ne m ρ c main_v29 (by decide)).trans (W6_norm m ρ c)
theorem W7_arg5 : W7 m ρ c (Proc.devRef .tc main_arg5) = m ((c.tc : Thread nD τ).loc main_arg5) := (W7_of_ne m ρ c main_arg5 (by decide)).trans (W6_arg5 m ρ c)

/-- THE RESULT: the last boundary's contents at the result buffer are the network over the two whole products. -/
theorem result_eq : W8 m ρ c (Proc.devRef .tc main_v64)
    = networkIdeal (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine (tail_result (W7 m ρ c)).trans ?_
  rw [W7_prod m ρ c, W7_src m ρ c, W7_dst m ρ c, W7_norm m ρ c, W7_arg5 m ρ c]
  rfl

end Cert.KernelIdeal.Fold

end
-- ==== Proof.ReferenceValue.lean ====
/-
  The reference program's result is the network.

  The reference's run ends with its result at one composed term of the arguments. That term is, piece by piece, the
  network's definition with the host's plain products in the two product places (the second layer's copies of the
  sources, the targets and the per-edge weights are the first layer's: the same operations of the same edge array).
  At the extended reals the host's product of an [a, k] by a [k, n] array is the index-by-index sum of products, so the
  result is `networkIdeal` of the arguments.
-/
import proofs.«149537_j58016418234712_2_alg».proof.Proof.ReferenceRun
import proofs.«149537_j58016418234712_2_alg».proof.Proof.NetworkIdeal
import proofs.«149537_j58016418234712_2_alg».proof.Proof.LibPlainDot

set_option maxRecDepth 16384

noncomputable section

namespace Cert.ReferenceIdeal.RefValue

open Idealize.ShloMosaic Idealize.ShloMosaic.TcCoe Idealize.SL.Sem
open Cert.ReferenceIdeal Cert.ReferenceIdeal.Gen Cert.Gcn Cert.LibMatProd Cert.LibPlainDot

section AnyInstance

variable {F : FTy → Type} [FloatOps F]

/-- The run's result term is the network over the host's two products. -/
theorem result_network (m : (ℓ : Loc nD τ sig) → Buf (Elt F) ℓ) (c : Dev nD) :
    Cert.ReferenceIdeal.ValueP.res_main_v90 m c
      = network (fun x w => Host.dotGeneral dot_S200000x128_S128x16_S200000x16_1_0_0_1_n_n none x w)
          (fun x w => Host.dotGeneral dot_S200000x16_S16x32_S200000x32_1_0_0_1_n_n none x w)
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v90
  rfl

end AnyInstance

/-- The host's first product is the sum of products. -/
theorem host_prod1 :
    (fun (x : FArr Ideal S200000x128) (w : FArr Ideal S128x16) => Host.dotGeneral (F := Ideal) (φ₁ := .f32) (φ₂ := .f32) dot_S200000x128_S128x16_S200000x16_1_0_0_1_n_n none x w) = prod1 :=
  funext fun x => funext fun w =>
    hostDot_eq (a := 200000) (k := 128) (n := 16) dot_S200000x128_S128x16_S200000x16_1_0_0_1_n_n
      (contr_rank _ rfl) (contr_size _ rfl) (lhs_row _ rfl rfl) (lhs_col _ rfl) (rhs_row _ rfl rfl) (rhs_col _ rfl rfl rfl rfl) none x w

/-- The host's second product is the sum of products. -/
theorem host_prod2 :
    (fun (x : FArr Ideal S200000x16) (w : FArr Ideal S16x32) => Host.dotGeneral (F := Ideal) (φ₁ := .f32) (φ₂ := .f32) dot_S200000x16_S16x32_S200000x32_1_0_0_1_n_n none x w) = prod2 :=
  funext fun x => funext fun w =>
    hostDot_eq (a := 200000) (k := 16) (n := 32) dot_S200000x16_S16x32_S200000x32_1_0_0_1_n_n
      (contr_rank _ rfl) (contr_size _ rfl) (lhs_row _ rfl rfl) (lhs_col _ rfl) (rhs_row _ rfl rfl) (rhs_col _ rfl rfl rfl rfl) none x w

/-- THE REFERENCE'S RESULT at the extended reals is the network of the arguments. -/
theorem result_eq (m : (ℓ : Loc nD τ sig) → Buf (Elt Ideal) ℓ) (c : Dev nD) :
    Cert.ReferenceIdeal.ValueP.res_main_v90 m c
      = networkIdeal (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  (result_network m c).trans
    (congrArg₂ (fun P₁ P₂ => network P₁ P₂ (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))) host_prod1 host_prod2)

end Cert.ReferenceIdeal.RefValue

end
-- ==== Proof.lean ====
/-
  A two-layer graph convolution on 200000 nodes and 6400000 edges: the kernel program against its reference.

  Both programs compute, from the node features x [200000, 128], the edge endpoints [2, 6400000], two weight matrices and
  two bias rows,
      out = A (relu (A (x · W1) + b1) · W2) + b2,
  where A h sums, for each node, over its incoming edges (the given ones and one loop edge per node) the source's row of h
  scaled by deg(source)^(-1/2) · deg(target)^(-1/2), the degree counting incoming edges, with 0 for a node of degree 0.

  The reference computes the two dense products x · W1 and h · W2 with the host's plain product and builds the edge lists
  and the per-edge weights once per layer. The kernel builds them once, and computes each dense product on the matrix
  unit in 20 blocks of 10000 rows, from operands rounded to a narrower float format into a zero accumulator.

  At the extended reals a change of float format is the identity, and both a host product and a matrix-unit product into
  zero are the index-by-index sum over q of L (p, q) · R (q, j). Entry (p, j) of such a product reads only row p of the left
  operand, so a block of rows of the product is the product of the block of rows, and the 20 blocks tile the rows: each
  region leaves the whole product. Every other operation is the same host operation of the same operands in both
  programs. So both results are ONE function of the arguments, `Cert.Gcn.networkIdeal`; no law of the extended reals beyond
  that is used, and the finiteness of the inputs is never opened.

  The frames: the two kernel programs' are the generated ones; the reference, a host program, runs to its composed term,
  and its frame is that run with the result dropped. The kernel's idealization rewrote no operation, so there is nothing to
  preserve.
-/
import proofs.«149537_j58016418234712_2_alg».proof.Defs
import proofs.«149537_j58016418234712_2_alg».proof.Proof.Gen.Kernel
import proofs.«149537_j58016418234712_2_alg».proof.Proof.Gen.Kernel.Skeleton
import proofs.«149537_j58016418234712_2_alg».proof.Proof.Gen.Kernel.Launch
import proofs.«149537_j58016418234712_2_alg».proof.Proof.Gen.Kernel.Points
import proofs.«149537_j58016418234712_2_alg».proof.Proof.Gen.Kernel.Frame
import proofs.«149537_j58016418234712_2_alg».proof.Proof.Gen.KernelIdeal
import proofs.«149537_j58016418234712_2_alg».proof.Proof.Gen.KernelIdeal.Skeleton
import proofs.«149537_j58016418234712_2_alg».proof.Proof.Gen.KernelIdeal.Launch
import proofs.«149537_j58016418234712_2_alg».proof.Proof.Gen.KernelIdeal.Points
import proofs.«149537_j58016418234712_2_alg».proof.Proof.Gen.KernelIdeal.Frame
import proofs.«149537_j58016418234712_2_alg».proof.Proof.Gen.ReferenceIdeal
import proofs.«149537_j58016418234712_2_alg».proof.Proof.Gen.Pre_finite_inputs
import proofs.«149537_j58016418234712_2_alg».proof.Proof.KernelRun
import proofs.«149537_j58016418234712_2_alg».proof.Proof.KernelFold
import proofs.«149537_j58016418234712_2_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is a host program: it runs to its composed term with the arguments unchanged. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with their result at the network of the arguments. -/
theorem algebraic : Cert.algebraic_KernelIdeal_ReferenceIdeal := by
  intro m ρ m' ρ' _ hagree
  refine ⟨fun c => Cert.Gcn.networkIdeal
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Fold.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5⟩ := hagree c
    rw [Cert.ReferenceIdeal.RefValue.result_eq m' c, e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
